-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x10 .f32) (main_arg5 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x10 : Shape := ⟨2, ![100000, 10]⟩
abbrev S4000x10 : Shape := ⟨2, ![4000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x10, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x10, .f32⟩
  | .hbm, ⟨79, _⟩ => ⟨S3300000x1, .f32⟩
  | .hbm, ⟨80, _⟩ => ⟨S3300000x10, .f32⟩
  | .hbm, ⟨81, _⟩ => ⟨S3300000x10, .f32⟩
  | .hbm, ⟨82, _⟩ => ⟨S_, .f32⟩
  | .hbm, ⟨83, _⟩ => ⟨S100000x10, .f32⟩
  | .hbm, ⟨84, _⟩ => ⟨S3300000x1, .i32⟩
  | .hbm, ⟨85, _⟩ => ⟨S100000x10, .f32⟩
  | .hbm, ⟨86, _⟩ => ⟨S1x10, .f32⟩
  | .hbm, ⟨87, _⟩ => ⟨S100000x10, .f32⟩
  | .hbm, ⟨88, _⟩ => ⟨S100000x10, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x10, .f32⟩
  | .hbm, ⟨96, _⟩ => ⟨S100000x10, .f32⟩
  | .hbm, ⟨97, _⟩ => ⟨S100000x10, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x10, .f32⟩
  | .hbm, ⟨103, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S16x10, .f32⟩
  | .local _ .vmem, ⟨8, _⟩ => ⟨S4000x10, .f32⟩
  | .local _ .vmem, ⟨9, _⟩ => ⟨S4000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S4000x16_S4000x16 : S4000x16.ShapeCasts S4000x16
  inb_S16x10_S16x10_0_0 : ∀ a, (![0, 0] : Fin 2 → Nat) a + S16x10.size a ≤ S16x10.size a
  h_S16x10 : 0 < S16x10.numel
  inb_S4000x10_S4000x10_0_0 : ∀ a, (![0, 0] : Fin 2 → Nat) a + S4000x10.size a ≤ S4000x10.size a
  h_S4000x10 : 0 < S4000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x10_S4000x10_1_0_0_1_n_n_wf : DotDims.WF S4000x16 S16x10 S4000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x10.size a ≤ S16x10.size a
  hwx1_1 : ∀ i : grid1.Coords, EltTy.bits .f32 = 32 ∨ (Rect.block (s := S16x10) S16x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x10.size a ≤ S100000x10.size a
  hwx1_2 : ∀ i : grid1.Coords, EltTy.bits .f32 = 32 ∨ (Rect.block (s := S100000x10) S4000x10.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x10_S4000x10_1_0_0_1_n_n : DotDims S4000x16 S16x10 S4000x10 where
  lhsContracting := [1]
  rhsContracting := [0]
  lhsNonContracting := [0]
  rhsNonContracting := [1]
  lhsBatch := []
  rhsBatch := []
  wf := dot_S4000x16_S16x10_S4000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x10, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x10, .f32⟩
  | .hbm, ⟨79, _⟩ => ⟨S3300000x1, .f32⟩
  | .hbm, ⟨80, _⟩ => ⟨S3300000x10, .f32⟩
  | .hbm, ⟨81, _⟩ => ⟨S3300000x10, .f32⟩
  | .hbm, ⟨82, _⟩ => ⟨S_, .f32⟩
  | .hbm, ⟨83, _⟩ => ⟨S100000x10, .f32⟩
  | .hbm, ⟨84, _⟩ => ⟨S3300000x1, .i32⟩
  | .hbm, ⟨85, _⟩ => ⟨S100000x10, .f32⟩
  | .hbm, ⟨86, _⟩ => ⟨S1x10, .f32⟩
  | .hbm, ⟨87, _⟩ => ⟨S100000x10, .f32⟩
  | .hbm, ⟨88, _⟩ => ⟨S100000x10, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x10, .f32⟩
  | .hbm, ⟨96, _⟩ => ⟨S100000x10, .f32⟩
  | .hbm, ⟨97, _⟩ => ⟨S100000x10, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x10, .f32⟩
  | .hbm, ⟨103, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelRun.lean ====
/-
  The idealized kernel's run, with EVERYTHING it leaves behind: every weakly fair execution of its @main terminates,
  nothing faulting, and each buffer that outlives the kernels ends holding what the fold of @main over the launch
  memory says — the host operations applied in order, each projection region's result array at what its write-backs
  leave, every other buffer as the region found it (the generated frame module's last boundary contents). The
  generated frame keeps of this only "the arguments end as launched"; the value claim needs the result buffer too, so
  the same launch over the same segments is read here at every buffer.
-/
import proofs.«174441_j62792421867575_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer not scoped to a kernel ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the result buffer read: it ends at the fold's contents there, and the six arguments end as launched. -/
theorem run_result : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (run_all m ρ)

end Cert.KernelIdeal.Whole

end
-- ==== Proof.Layers.lean ====
/-
  The graph-convolution stages that the kernel's program and the reference apply alike, each as ONE named function
  of its operands. The network is two rounds of

      project (h · W)  →  gather the rows of the projection at the edges' sources, scale each by the edge's
      weight  →  add the scaled rows up at the edges' targets  →  add the bias,

  a ReLU between the rounds and a row-wise log-softmax at the end. The edge list is the given one followed by one
  self-loop per node; an edge's weight is deg(src)^(-1/2) · deg(dst)^(-1/2), deg counting the edges that END at a node
  (at least the self-loop), with the convention "0 where the count is not positive". Indices are taken as the host
  does: a negative one has the node count added before it is used.

  Only the PROJECTION differs between the two programs (a tiled matrix unit product against one whole product);
  every function here is what comes around it, so both programs are stated as the same composition of these
  functions around their own projections, and none of them is ever opened again.
-/
import proofs.«174441_j62792421867575_1_alg».proof.Proof.Gen.KernelIdeal
import Idealize.ShloMosaic.PureOps.Ideal

noncomputable section

namespace Cert.Gcn

open Idealize.ShloMosaic Cert.KernelIdeal Cert.KernelIdeal.Facts₀

variable {F : FTy → Type} [FloatOps F]

/-- Row `0` of the edge list (the sources) followed by the nodes `0 … N-1` (the self-loops' sources). -/
def srcIds (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Row `1` of the edge list (the targets) followed by the nodes `0 … N-1` (the self-loops' targets). -/
def dstIds (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node ids as a gather takes them: a negative id has the node count added, and the list becomes a column. -/
def wrapIds (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- A node's degree: the number of edges (self-loop included) whose target it is — a one added at every target. -/
def degree (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32))

/-- `deg^(-1/2)` where the degree is positive, `0` elsewhere. -/
def invSqrtDegree (dst : (⟨S3300000, .i32⟩ : BufTy).Contents (Elt F)) : (⟨S100000, .f32⟩ : BufTy).Contents (Elt F) :=
  select (cmpf .ogt (degree dst) (broadcastInDim S100000 ![] bcast_S_S100000 (constant S_ .f32 0x00000000#32)))
    (Host.rsqrt (degree dst))
    (broadcastInDim S100000 ![] bcast_S_S100000 (id (constant S_ .f32 0x00000000#32)))

/-- An edge's weight: `deg(src)^(-1/2) · deg(dst)^(-1/2)`. -/
def edgeWeight (src dst : (⟨S3300000, .i32⟩ : BufTy).Contents (Elt F)) : (⟨S3300000, .f32⟩ : BufTy).Contents (Elt F) :=
  mulf (Host.gather gather_S100000_S3300000x1_S3300000_n_0_n_n_0_1_1 (invSqrtDegree dst) (wrapIds src))
    (Host.gather gather_S100000_S3300000x1_S3300000_n_0_n_n_0_1_1 (invSqrtDegree dst) (wrapIds dst))

/-- One aggregation over 16 features: the projected rows at the sources, each scaled by its edge's weight, summed at
    the targets, plus the bias on every row. -/
def aggregate16 (p : (⟨S100000x16, .f32⟩ : BufTy).Contents (Elt F)) (src dst : (⟨S3300000, .i32⟩ : BufTy).Contents (Elt F))
    (wt : (⟨S3300000, .f32⟩ : BufTy).Contents (Elt F)) (b : (⟨S16, .f32⟩ : BufTy).Contents (Elt F)) : (⟨S100000x16, .f32⟩ : BufTy).Contents (Elt F) :=
  addf
    (Host.scatterAdd scatter_S100000x16_S3300000x1_S3300000x16_1_0_0_1
      (broadcastInDim S100000x16 ![] bcast_S_S100000x16 (constant S_ .f32 0x00000000#32))
      (broadcastInDim S3300000x1 ![0] bcast_S3300000_S3300000x1_0 dst)
      (mulf (Host.gather gather_S100000x16_S3300000x1_S3300000x16_1_0_n_n_0_1_116 p (wrapIds src))
        (broadcastInDim S3300000x16 ![0, 1] bcast_S3300000x1_S3300000x16_0_1 (broadcastInDim S3300000x1 ![0] bcast_S3300000_S3300000x1_0 wt))))
    (broadcastInDim S100000x16 ![0, 1] bcast_S1x16_S100000x16_0_1 (broadcastInDim S1x16 ![1] bcast_S16_S1x16_1 b))

/-- The same aggregation over 10 features. -/
def aggregate10 (p : (⟨S100000x10, .f32⟩ : BufTy).Contents (Elt F)) (src dst : (⟨S3300000, .i32⟩ : BufTy).Contents (Elt F))
    (wt : (⟨S3300000, .f32⟩ : BufTy).Contents (Elt F)) (b : (⟨S10, .f32⟩ : BufTy).Contents (Elt F)) : (⟨S100000x10, .f32⟩ : BufTy).Contents (Elt F) :=
  addf
    (Host.scatterAdd scatter_S100000x10_S3300000x1_S3300000x10_1_0_0_1
      (broadcastInDim S100000x10 ![] bcast_S_S100000x10 (constant S_ .f32 0x00000000#32))
      (broadcastInDim S3300000x1 ![0] bcast_S3300000_S3300000x1_0 dst)
      (mulf (Host.gather gather_S100000x10_S3300000x1_S3300000x10_1_0_n_n_0_1_110 p (wrapIds src))
        (broadcastInDim S3300000x10 ![0, 1] bcast_S3300000x1_S3300000x10_0_1 (broadcastInDim S3300000x1 ![0] bcast_S3300000_S3300000x1_0 wt))))
    (broadcastInDim S100000x10 ![0, 1] bcast_S1x10_S100000x10_0_1 (broadcastInDim S1x10 ![1] bcast_S10_S1x10_1 b))

/-- ReLU: the maximum with zero, entry by entry. -/
def relu16 (x : (⟨S100000x16, .f32⟩ : BufTy).Contents (Elt F)) : (⟨S100000x16, .f32⟩ : BufTy).Contents (Elt F) :=
  maximumf x (broadcastInDim S100000x16 ![] bcast_S_S100000x16 (constant S_ .f32 0x00000000#32))

/-- A row minus its maximum (the maximum taken from `-∞`), the first half of a stable log-softmax. -/
def centred (x : (⟨S100000x10, .f32⟩ : BufTy).Contents (Elt F)) : (⟨S100000x10, .f32⟩ : BufTy).Contents (Elt F) :=
  subf x (broadcastInDim S100000x10 ![0, 1] bcast_S100000x1_S100000x10_0_1 (broadcastInDim S100000x1 ![0] bcast_S100000_S100000x1_0
    (maximumf (broadcastInDim S100000 ![] bcast_S_S100000 (constant S_ .f32 0xFF800000#32))
      (Host.reduce FloatOps.maximumf x (constant S_ .f32 0xFF800000#32) reducesTo_S100000x10_S100000_d1 h_S_))))

/-- The row-wise log-softmax: the centred row minus the logarithm of the sum of its exponentials. -/
def logSoftmax (x : (⟨S100000x10, .f32⟩ : BufTy).Contents (Elt F)) : (⟨S100000x10, .f32⟩ : BufTy).Contents (Elt F) :=
  subf (centred x) (broadcastInDim S100000x10 ![0, 1] bcast_S100000x1_S100000x10_0_1
    (Host.log (broadcastInDim S100000x1 ![0] bcast_S100000_S100000x1_0
      (Host.reduceAdd (Host.exp (centred x)) (constant S_ .f32 0x00000000#32) reducesTo_S100000x10_S100000_d1 h_S_))))

/-- The hidden layer from the first projection `p₁ = x · W₁`: aggregate, add `b₁`, ReLU. -/
def hidden (p1 : (⟨S100000x16, .f32⟩ : BufTy).Contents (Elt F)) (e : (⟨S2x3200000, .i32⟩ : BufTy).Contents (Elt F))
    (b1 : (⟨S16, .f32⟩ : BufTy).Contents (Elt F)) : (⟨S100000x16, .f32⟩ : BufTy).Contents (Elt F) :=
  relu16 (aggregate16 p1 (srcIds e) (dstIds e) (edgeWeight (srcIds e) (dstIds e)) b1)

/-- The network's output from the second projection `p₂ = h · W₂`: aggregate, add `b₂`, log-softmax. -/
def output (p2 : (⟨S100000x10, .f32⟩ : BufTy).Contents (Elt F)) (e : (⟨S2x3200000, .i32⟩ : BufTy).Contents (Elt F))
    (b2 : (⟨S10, .f32⟩ : BufTy).Contents (Elt F)) : (⟨S100000x10, .f32⟩ : BufTy).Contents (Elt F) :=
  logSoftmax (aggregate10 p2 (srcIds e) (dstIds e) (edgeWeight (srcIds e) (dstIds e)) b2)

end Cert.Gcn

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.KernelFold.lean ====
/-
  The host side of the idealized kernel's @main, read back stretch by stretch. Between the launch, the two projection
  regions and the return, @main is three stretches of host operations; each is read here as a function of the buffer
  contents `W` it starts from, whatever they are:

    before the first region — the edge list becomes the source and target lists (self-loops appended) and the edge
      weights; the arguments are not written;
    between the regions — the first projection is aggregated over the edges, biased and rectified: the hidden layer;
    after the second region — the second projection is aggregated, biased and log-softmaxed: the result.

  Each stretch's result is the corresponding named stage (the layers module) of what `W` holds at the stretch's operands;
  the lists and weights, computed once before the first region, are only carried through the later stretches.
-/
import proofs.«174441_j62792421867575_1_alg».proof.Proof.Gen.KernelIdeal.Launch
import proofs.«174441_j62792421867575_1_alg».proof.Proof.Layers
import proofs.«174441_j62792421867575_1_alg».proof.Proof.LibTypedRef
import Idealize.ShloMosaic.Lib.StableHlo.Run

set_option maxRecDepth 16384

noncomputable section

namespace Cert.KernelIdeal.Fold

open Cert.KernelIdeal Cert.KernelIdeal.Gen Cert.Gcn
open Idealize.ShloMosaic Idealize.ShloMosaic.TcCoe Idealize.SL.Sem Idealize.ShloMosaic.StableHlo

variable {F : FTy → Type} [FloatOps F]
variable (W : Valuation τ sig (Elt F))

/-- An operation's result at its own buffer is its function's value, and at any other buffer what was there before:
    these two facts for `reshape`, one- and two-operand operations and constants, applied until neither does (what is
    left to do where a `reshape`'s result is one of a `concatenate`'s listed operands). -/
macro "finish_results" : tactic =>
  `(tactic| repeat (first
      | rw [reshape_result] | rw [unary_result] | rw [nullary_result] | rw [binary_result]
      | (rw [reshape_result_ne]; rotate_left; decide)
      | (rw [unary_result_ne]; rotate_left; decide)
      | (rw [binary_result_ne]; rotate_left; decide)
      | (rw [nullary_result_ne]; rotate_left; decide)))

/-! ## Before the first region -/

set_option maxHeartbeats 4000000 in
/-- The source list: row 0 of the edge list, then every node. -/
theorem head_src : after hostOps0_2 (after hostOps0_1 (after hostOps0 W)) (Proc.devRef .tc main_v3) = srcIds (W (Proc.devRef .tc main_arg1)) := by
  simp only [hostOps0, hostOps0_1, hostOps0_2]
  after_results_simp
  finish_results
  rfl

set_option maxHeartbeats 4000000 in
/-- The target list: row 1 of the edge list, then every node. -/
theorem head_dst : after hostOps0_2 (after hostOps0_1 (after hostOps0 W)) (Proc.devRef .tc main_v6) = dstIds (W (Proc.devRef .tc main_arg1)) := by
  simp only [hostOps0, hostOps0_1, hostOps0_2]
  after_results_simp
  finish_results
  rfl

set_option maxHeartbeats 4000000 in
/-- The edge weights `deg(src)^(-1/2) · deg(dst)^(-1/2)`. -/
theorem head_weight : after hostOps0_2 (after hostOps0_1 (after hostOps0 W)) (Proc.devRef .tc main_v29)
    = edgeWeight (srcIds (W (Proc.devRef .tc main_arg1))) (dstIds (W (Proc.devRef .tc main_arg1))) := by
  simp only [hostOps0, hostOps0_1, hostOps0_2]
  after_results_simp
  finish_results
  rfl

set_option maxHeartbeats 4000000 in
/-- `main_arg0` is not written before the first region. -/
theorem head_main_arg0 : after hostOps0_2 (after hostOps0_1 (after hostOps0 W)) (Proc.devRef .tc main_arg0) = W (Proc.devRef .tc main_arg0) := by
  simp only [hostOps0, hostOps0_1, hostOps0_2]
  after_results_simp

set_option maxHeartbeats 4000000 in
/-- `main_arg2` is not written before the first region. -/
theorem head_main_arg2 : after hostOps0_2 (after hostOps0_1 (after hostOps0 W)) (Proc.devRef .tc main_arg2) = W (Proc.devRef .tc main_arg2) := by
  simp only [hostOps0, hostOps0_1, hostOps0_2]
  after_results_simp

set_option maxHeartbeats 4000000 in
/-- `main_arg3` is not written before the first region. -/
theorem head_main_arg3 : after hostOps0_2 (after hostOps0_1 (after hostOps0 W)) (Proc.devRef .tc main_arg3) = W (Proc.devRef .tc main_arg3) := by
  simp only [hostOps0, hostOps0_1, hostOps0_2]
  after_results_simp

set_option maxHeartbeats 4000000 in
/-- `main_arg4` is not written before the first region. -/
theorem head_main_arg4 : after hostOps0_2 (after hostOps0_1 (after hostOps0 W)) (Proc.devRef .tc main_arg4) = W (Proc.devRef .tc main_arg4) := by
  simp only [hostOps0, hostOps0_1, hostOps0_2]
  after_results_simp

set_option maxHeartbeats 4000000 in
/-- `main_arg5` is not written before the first region. -/
theorem head_main_arg5 : after hostOps0_2 (after hostOps0_1 (after hostOps0 W)) (Proc.devRef .tc main_arg5) = W (Proc.devRef .tc main_arg5) := by
  simp only [hostOps0, hostOps0_1, hostOps0_2]
  after_results_simp

/-! ## Between the regions -/

set_option maxHeartbeats 4000000 in
/-- The hidden layer from the first projection, the lists, the weights and `b₁` as the stretch finds them. -/
theorem mid_hidden : after hostOps1_1 (after hostOps1 W) (Proc.devRef .tc main_v47)
    = relu16 (aggregate16 (W (Proc.devRef .tc main_v30)) (W (Proc.devRef .tc main_v3)) (W (Proc.devRef .tc main_v6)) (W (Proc.devRef .tc main_v29)) (W (Proc.devRef .tc main_arg3))) := by
  simp only [hostOps1, hostOps1_1]
  after_results_simp
  rfl

set_option maxHeartbeats 4000000 in
/-- `main_v3` is not written between the regions. -/
theorem mid_main_v3 : after hostOps1_1 (after hostOps1 W) (Proc.devRef .tc main_v3) = W (Proc.devRef .tc main_v3) := by
  simp only [hostOps1, hostOps1_1]
  after_results_simp

set_option maxHeartbeats 4000000 in
/-- `main_v6` is not written between the regions. -/
theorem mid_main_v6 : after hostOps1_1 (after hostOps1 W) (Proc.devRef .tc main_v6) = W (Proc.devRef .tc main_v6) := by
  simp only [hostOps1, hostOps1_1]
  after_results_simp

set_option maxHeartbeats 4000000 in
/-- `main_v29` is not written between the regions. -/
theorem mid_main_v29 : after hostOps1_1 (after hostOps1 W) (Proc.devRef .tc main_v29) = W (Proc.devRef .tc main_v29) := by
  simp only [hostOps1, hostOps1_1]
  after_results_simp

set_option maxHeartbeats 4000000 in
/-- `main_arg4` is not written between the regions. -/
theorem mid_main_arg4 : after hostOps1_1 (after hostOps1 W) (Proc.devRef .tc main_arg4) = W (Proc.devRef .tc main_arg4) := by
  simp only [hostOps1, hostOps1_1]
  after_results_simp

set_option maxHeartbeats 4000000 in
/-- `main_arg5` is not written between the regions. -/
theorem mid_main_arg5 : after hostOps1_1 (after hostOps1 W) (Proc.devRef .tc main_arg5) = W (Proc.devRef .tc main_arg5) := by
  simp only [hostOps1, hostOps1_1]
  after_results_simp

/-! ## After the second region -/

set_option maxHeartbeats 4000000 in
/-- The result from the second projection, the lists, the weights and `b₂` as the stretch finds them. -/
theorem tail_output : after hostOps2_1 (after hostOps2 W) (Proc.devRef .tc main_v65)
    = logSoftmax (aggregate10 (W (Proc.devRef .tc main_v48)) (W (Proc.devRef .tc main_v3)) (W (Proc.devRef .tc main_v6)) (W (Proc.devRef .tc main_v29)) (W (Proc.devRef .tc main_arg5))) := by
  simp only [hostOps2, hostOps2_1]
  after_results_simp
  simp only [Cert.Lib.ofBuf_toBuf]
  rfl

end Cert.KernelIdeal.Fold

end
-- ==== Proof.MatProd.lean ====
/-
  The plain matrix product over the extended reals, index by index: entry (p, q) of `x · w` is the sum over `κ` of
  `x (p, κ) · w (κ, q)`. Both programs' projections are this one function: the host's `dot_general` contracting the
  left operand's columns against the right operand's rows, and the matrix unit's product into a zero accumulator
  (a change of float format is the identity on extended reals, and `0 + s = s` whatever `s`, infinite or not).
-/
import Idealize.ShloMosaic.PureOps.Ideal
import Idealize.ShloMosaic.PureOps.Ideal.Laws
import Idealize.ShloMosaic.Lib.ValueIdx

noncomputable section

open scoped BigOperators

namespace Cert.Gcn

open Idealize.ShloMosaic

/-- The left operand's index for output entry `i` at contraction position `κ`: row of `i`, column `κ`. -/
abbrev rowAt {a k b : Nat} (i : (⟨2, ![a, b]⟩ : Shape).Idx) (κ : Fin k) : (⟨2, ![a, k]⟩ : Shape).Idx := fun d => match d with
  | ⟨0, _⟩ => ⟨(i 0).val, (i 0).isLt⟩
  | ⟨1, _⟩ => ⟨κ.val, κ.isLt⟩

/-- The right operand's index for output entry `i` at contraction position `κ`: row `κ`, column of `i`. -/
abbrev colAt {a k b : Nat} (i : (⟨2, ![a, b]⟩ : Shape).Idx) (κ : Fin k) : (⟨2, ![k, b]⟩ : Shape).Idx := fun d => match d with
  | ⟨0, _⟩ => ⟨κ.val, κ.isLt⟩
  | ⟨1, _⟩ => ⟨(i 1).val, (i 1).isLt⟩

/-- `x · w` for an `a × k` and a `k × b` array of extended reals. -/
def matProd (a k b : Nat) (x : (⟨2, ![a, k]⟩ : Shape).Idx → EReal) (w : (⟨2, ![k, b]⟩ : Shape).Idx → EReal) :
    (⟨2, ![a, b]⟩ : Shape).Idx → EReal :=
  fun i => ∑ κ : Fin k, x (rowAt i κ) * w (colAt i κ)

end Cert.Gcn

end
-- ==== Proof.DotKernel.lean ====
/-
  The matrix unit's two block products of the idealized kernel — a 4000 × 512 block of `x` times the whole 512 × 16
  `W₁`, and a 4000 × 16 block of the hidden layer times the whole 16 × 10 `W₂`, each into a zero accumulator — are
  the plain matrix product of their operands, entry by entry: the operand indices the product's dimension numbers give
  are (row of the entry, κ) and (κ, column of the entry), and the one contracted axis is re-indexed by its coordinate.
-/
import proofs.«174441_j62792421867575_1_alg».proof.Proof.Gen.KernelIdeal
import proofs.«174441_j62792421867575_1_alg».proof.Proof.MatProd

noncomputable section

open scoped BigOperators

namespace Cert.KernelIdeal.Dots

open Idealize.ShloMosaic Cert.Gcn Cert.KernelIdeal

/-! ## `dot_S4000x512_S512x16_S4000x16_1_0_0_1_n_n`: rows of the left operand against columns of the right, one contracted axis of extent 512 -/

theorem lhs0_blk1 (i : S4000x16.Idx) (q : dot_S4000x512_S512x16_S4000x16_1_0_0_1_n_n.contr.Idx) : (dot_S4000x512_S512x16_S4000x16_1_0_0_1_n_n.lhsIdx i q 0).val = (i 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
theorem lhs1_blk1 (i : S4000x16.Idx) (q : dot_S4000x512_S512x16_S4000x16_1_0_0_1_n_n.contr.Idx) : (dot_S4000x512_S512x16_S4000x16_1_0_0_1_n_n.lhsIdx i q 1).val = (q ⟨0, by decide⟩).val :=
  dot_S4000x512_S512x16_S4000x16_1_0_0_1_n_n.lhsIdx_val_of_single rfl i q
theorem rhs0_blk1 (i : S4000x16.Idx) (q : dot_S4000x512_S512x16_S4000x16_1_0_0_1_n_n.contr.Idx) : (dot_S4000x512_S512x16_S4000x16_1_0_0_1_n_n.rhsIdx i q 0).val = (q ⟨0, by decide⟩).val :=
  dot_S4000x512_S512x16_S4000x16_1_0_0_1_n_n.rhsIdx_val_of_single rfl i q
theorem rhs1_blk1 (i : S4000x16.Idx) (q : dot_S4000x512_S512x16_S4000x16_1_0_0_1_n_n.contr.Idx) : (dot_S4000x512_S512x16_S4000x16_1_0_0_1_n_n.rhsIdx i q 1).val = (i 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- Read at an entry, the product is the plain matrix product's sum there. -/
theorem matmul_blk1 {φ₁ φ₂ : FTy} (l : FVec Ideal S4000x512 φ₁) (r : FVec Ideal S512x16 φ₂) (i : S4000x16.Idx) :
    FloatOps.matmul dot_S4000x512_S512x16_S4000x16_1_0_0_1_n_n none l r (constant (F := Ideal) S4000x16 .f32 0x00000000#32) i = matProd 4000 512 16 l r i := by
  rw [Ideal.matmul_constant_zero_apply, ← Equiv.sum_comp (ValueIdx.contrEquiv1 dot_S4000x512_S512x16_S4000x16_1_0_0_1_n_n 512 rfl rfl).symm]
  unfold matProd
  refine Finset.sum_congr rfl fun k _ => ?_
  have hk := ValueIdx.contrEquiv1_symm_val dot_S4000x512_S512x16_S4000x16_1_0_0_1_n_n 512 rfl rfl k
  have el : dot_S4000x512_S512x16_S4000x16_1_0_0_1_n_n.lhsIdx i ((ValueIdx.contrEquiv1 dot_S4000x512_S512x16_S4000x16_1_0_0_1_n_n 512 rfl rfl).symm k) = rowAt i k := funext fun a => Fin.ext (by
    match a with
    | ⟨0, _⟩ => exact lhs0_blk1 _ _
    | ⟨1, _⟩ => exact (lhs1_blk1 _ _).trans hk)
  have er : dot_S4000x512_S512x16_S4000x16_1_0_0_1_n_n.rhsIdx i ((ValueIdx.contrEquiv1 dot_S4000x512_S512x16_S4000x16_1_0_0_1_n_n 512 rfl rfl).symm k) = colAt i k := funext fun a => Fin.ext (by
    match a with
    | ⟨0, _⟩ => exact (rhs0_blk1 _ _).trans hk
    | ⟨1, _⟩ => exact rhs1_blk1 _ _)
  rw [el, er]

/-! ## `dot_S4000x16_S16x10_S4000x10_1_0_0_1_n_n`: rows of the left operand against columns of the right, one contracted axis of extent 16 -/

theorem lhs0_blk2 (i : S4000x10.Idx) (q : dot_S4000x16_S16x10_S4000x10_1_0_0_1_n_n.contr.Idx) : (dot_S4000x16_S16x10_S4000x10_1_0_0_1_n_n.lhsIdx i q 0).val = (i 0).val := by
  unfold DotDims.lhsIdx
  rw [dif_neg (show ¬(0 : Fin S4000x16.rank) ∈ dot_S4000x16_S16x10_S4000x10_1_0_0_1_n_n.lhsBatch by decide), dif_pos (show (0 : Fin S4000x16.rank) ∈ dot_S4000x16_S16x10_S4000x10_1_0_0_1_n_n.lhsNonContracting by decide)]
  rfl
theorem lhs1_blk2 (i : S4000x10.Idx) (q : dot_S4000x16_S16x10_S4000x10_1_0_0_1_n_n.contr.Idx) : (dot_S4000x16_S16x10_S4000x10_1_0_0_1_n_n.lhsIdx i q 1).val = (q ⟨0, by decide⟩).val :=
  dot_S4000x16_S16x10_S4000x10_1_0_0_1_n_n.lhsIdx_val_of_single rfl i q
theorem rhs0_blk2 (i : S4000x10.Idx) (q : dot_S4000x16_S16x10_S4000x10_1_0_0_1_n_n.contr.Idx) : (dot_S4000x16_S16x10_S4000x10_1_0_0_1_n_n.rhsIdx i q 0).val = (q ⟨0, by decide⟩).val :=
  dot_S4000x16_S16x10_S4000x10_1_0_0_1_n_n.rhsIdx_val_of_single rfl i q
theorem rhs1_blk2 (i : S4000x10.Idx) (q : dot_S4000x16_S16x10_S4000x10_1_0_0_1_n_n.contr.Idx) : (dot_S4000x16_S16x10_S4000x10_1_0_0_1_n_n.rhsIdx i q 1).val = (i 1).val := by
  unfold DotDims.rhsIdx
  rw [dif_neg (show ¬(1 : Fin S16x10.rank) ∈ dot_S4000x16_S16x10_S4000x10_1_0_0_1_n_n.rhsBatch by decide), dif_pos (show (1 : Fin S16x10.rank) ∈ dot_S4000x16_S16x10_S4000x10_1_0_0_1_n_n.rhsNonContracting by decide)]
  rfl

/-- Read at an entry, the product is the plain matrix product's sum there. -/
theorem matmul_blk2 {φ₁ φ₂ : FTy} (l : FVec Ideal S4000x16 φ₁) (r : FVec Ideal S16x10 φ₂) (i : S4000x10.Idx) :
    FloatOps.matmul dot_S4000x16_S16x10_S4000x10_1_0_0_1_n_n none l r (constant (F := Ideal) S4000x10 .f32 0x00000000#32) i = matProd 4000 16 10 l r i := by
  rw [Ideal.matmul_constant_zero_apply, ← Equiv.sum_comp (ValueIdx.contrEquiv1 dot_S4000x16_S16x10_S4000x10_1_0_0_1_n_n 16 rfl rfl).symm]
  unfold matProd
  refine Finset.sum_congr rfl fun k _ => ?_
  have hk := ValueIdx.contrEquiv1_symm_val dot_S4000x16_S16x10_S4000x10_1_0_0_1_n_n 16 rfl rfl k
  have el : dot_S4000x16_S16x10_S4000x10_1_0_0_1_n_n.lhsIdx i ((ValueIdx.contrEquiv1 dot_S4000x16_S16x10_S4000x10_1_0_0_1_n_n 16 rfl rfl).symm k) = rowAt i k := funext fun a => Fin.ext (by
    match a with
    | ⟨0, _⟩ => exact lhs0_blk2 _ _
    | ⟨1, _⟩ => exact (lhs1_blk2 _ _).trans hk)
  have er : dot_S4000x16_S16x10_S4000x10_1_0_0_1_n_n.rhsIdx i ((ValueIdx.contrEquiv1 dot_S4000x16_S16x10_S4000x10_1_0_0_1_n_n 16 rfl rfl).symm k) = colAt i k := funext fun a => Fin.ext (by
    match a with
    | ⟨0, _⟩ => exact (rhs0_blk2 _ _).trans hk
    | ⟨1, _⟩ => exact rhs1_blk2 _ _)
  rw [el, er]

end Cert.KernelIdeal.Dots

end
-- ==== Proof.Proj1.lean ====
/-
  The first projection region of the idealized kernel, read as a value: after its 25 grid points the result array
  holds the plain matrix product `x · W₁` of the two arrays the region was entered with. Each point loads the `t`-th
  block of 4000 rows of `x` and all of `W₁`, stores their product (the rounding to bf16 on the way into the matrix
  unit is the identity on extended reals; the accumulator is zero), and that block is written back to rows
  `4000·t … 4000·t + 3999` of the result; the 25 blocks tile the 100000 rows.
-/
import proofs.«174441_j62792421867575_1_alg».proof.Proof.Gen.KernelIdeal.Frame
import proofs.«174441_j62792421867575_1_alg».proof.Proof.DotKernel
import Idealize.ShloMosaic.Lib.Pipeline.Value

set_option maxRecDepth 16384

noncomputable section

open scoped BigOperators

namespace Cert.KernelIdeal.Proj1

open Cert.KernelIdeal Cert.KernelIdeal.Gen Cert.KernelIdeal.Dots Cert.Gcn
open Idealize.ShloMosaic Idealize.ShloMosaic.TcCoe Idealize.SL.Sem
open Idealize.ShloMosaic.Pipeline (Dat Cfg Window)

-- the buffer contents when the region is entered: a parameter here, the run's fold where this is used
variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, at an entry of its block: the product of the loaded block of the left operand with the loaded
    right operand there. -/
theorem stored_apply (x0 : Vec Ideal S4000x512 .f32) (x1 : Vec Ideal S512x16 .f32) (j : S4000x16.Idx) :
    k0_pay1 (F := Ideal) x0 x1 j = matProd 4000 512 16 x0 x1 j := by
  unfold k0_pay1
  refine (matmul_blk1 _ _ j).trans ?_
  rfl

/-- The printed index maps over the grid: the left operand's and the result's blocks are the `t`-th row blocks, the
    right operand's block is the whole array at every point. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product of the two arrays as the region finds them: row
    `4000·t + p` of the product needs row `4000·t + p` of the left array, which is row `p` of the point's left block, and
    all of the right array, which is the point's right block. -/
theorem flushed_eq (c : Dev nD) (t : Fin cfg0.N) :
    (dat0 V c).flushed 2 t
      = ((cfg0.win 2).blk t).view.read (Elt Ideal) (matProd 100000 512 16 (V c main_arg0) (V c main_arg2)) := by
  show (cfg0.win 2).cut (grid0.coords t) ((dat0 V c).after 2 t) = _
  rw [after0_2]
  unfold out0_2
  rw [View.canon_unit_zero zero_offsets]
  simp only [View.ld_unit_zero (S := S4000x512) zero_offsets, View.ld_unit_zero (S := S512x16) zero_offsets]
  obtain ⟨e00, e01, e10, e11, e20, e21⟩ := index_maps t
  funext j
  show k0_pay1 (F := Ideal) (iblk0 V c 0 t) (iblk0 V c 1 t) j
    = matProd 100000 512 16 (V c main_arg0) (V c main_arg2) (((cfg0.win 2).blk t).view.emb j)
  refine (stored_apply _ _ j).trans ?_
  unfold matProd
  refine Finset.sum_congr rfl fun κ _ => ?_
  have hl : iblk0 V c 0 t (rowAt j κ) = V c main_arg0 (rowAt (((cfg0.win 2).blk t).view.emb j) κ) := by
    show V c main_arg0 (((cfg0.win 0).blk t).view.emb (rowAt j κ)) = _
    refine congrArg (V c main_arg0) (funext fun a => Fin.ext ?_)
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 512 + 1 * κ.val = κ.val
      omega
  have hr : iblk0 V c 1 t (colAt j κ) = V c main_arg2 (colAt (((cfg0.win 2).blk t).view.emb j) κ) := by
    show V c main_arg2 (((cfg0.win 1).blk t).view.emb (colAt j κ)) = _
    refine congrArg (V c main_arg2) (funext fun a => Fin.ext ?_)
    match a with
    | ⟨0, _⟩ =>
      show win0_1.index t (0 : Fin 2) * 512 + 1 * κ.val = κ.val
      omega
    | ⟨1, _⟩ =>
      show win0_1.index t (1 : Fin 2) * 16 + 1 * (j 1).val = win0_2.index t (1 : Fin 2) * 16 + 1 * (j 1).val
      omega
  rw [hl, hr]

/-- An index of the result array is in point `t`'s block iff each coordinate is in the block's range on its axis. -/
theorem mem_block (t : Fin cfg0.N) (i : S100000x16.Idx) :
    i ∈ ((cfg0.win 2).blk t).view.set ↔ ∀ a : Fin 2, win0_2.index t a * S4000x16.size a ≤ (i a).val
      ∧ (i a).val < win0_2.index t a * S4000x16.size a + S4000x16.size a := by
  show i ∈ ((View.whole main_v30).slice (win0_2.rect t)).set ↔ _
  rw [View.set_slice_whole, Rect.mem_set_unit]
  exact Iff.rfl

/-- The 25 row blocks cover the result array: row `r` is in the block of point `r / 4000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 25 := N_0
  have hlt : (i 0).val / 4000 < cfg0.N := by show (i 0).val / 4000 < grid0.N; omega
  obtain ⟨e00, e01, e10, e11, e20, e21⟩ := index_maps ⟨(i 0).val / 4000, hlt⟩
  have e20' : win0_2.index ⟨(i 0).val / 4000, hlt⟩ (0 : Fin 2) = (i 0).val / 4000 := e20
  refine ⟨⟨(i 0).val / 4000, hlt⟩, flush0_2 _, ?_⟩
  rw [mem_block]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    omega
  | ⟨1, _⟩ =>
    show win0_2.index ⟨(i 0).val / 4000, hlt⟩ (1 : Fin 2) * 16 ≤ (i 1).val
      ∧ (i 1).val < win0_2.index ⟨(i 0).val / 4000, hlt⟩ (1 : Fin 2) * 16 + 16
    omega

/-- THE RESULT ARRAY after the region: the whole product of the two arrays as the region found them. -/
theorem result_array (c : Dev nD) :
    (dat0 V c).arrAt 2 cfg0.N = matProd 100000 512 16 (V c main_arg0) (V c main_arg2) :=
  (dat0 V c).arrAt_eq_of_cover 2 _ (fun t _ => flushed_eq V c t) covered

end Cert.KernelIdeal.Proj1

end
-- ==== Proof.Proj2.lean ====
/-
  The second projection region of the idealized kernel, read as a value: after its 25 grid points the result array
  holds the plain matrix product `h · W₂` of the two arrays the region was entered with (the hidden layer and `W₂`).
  Each point loads the `t`-th block of 4000 rows of `h` and all of `W₂`, stores their product (a shape cast to the
  same shape and the rounding to bf16 on the way into the matrix unit are the identity on extended reals; the
  accumulator is zero), and that block is written back to rows `4000·t … 4000·t + 3999` of the result; the 25 blocks
  tile the 100000 rows.
-/
import proofs.«174441_j62792421867575_1_alg».proof.Proof.Gen.KernelIdeal.Frame
import proofs.«174441_j62792421867575_1_alg».proof.Proof.DotKernel
import Idealize.ShloMosaic.Lib.Pipeline.Value

set_option maxRecDepth 16384

noncomputable section

open scoped BigOperators

namespace Cert.KernelIdeal.Proj2

open Cert.KernelIdeal Cert.KernelIdeal.Gen Cert.KernelIdeal.Dots Cert.Gcn
open Idealize.ShloMosaic Idealize.ShloMosaic.TcCoe Idealize.SL.Sem
open Idealize.ShloMosaic.Pipeline (Dat Cfg Window)

-- the buffer contents when the region is entered: a parameter here, the run's fold where this is used
variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, at an entry of its block: the product of the loaded block of the left operand with the loaded
    right operand there (the left block first cast to its own shape, which changes nothing). -/
theorem stored_apply (x0 : Vec Ideal S4000x16 .f32) (x1 : Vec Ideal S16x10 .f32) (j : S4000x10.Idx) :
    k1_pay1 (F := Ideal) x0 x1 j = matProd 4000 16 10 x0 x1 j := by
  unfold k1_pay1
  refine (matmul_blk2 _ _ j).trans ?_
  rw [Idealize.ShloMosaic.shapeCast_self]
  rfl

/-- The printed index maps over the grid: the left operand's and the result's blocks are the `t`-th row blocks, the
    right operand's block is the whole array at every point. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole product of the two arrays as the region finds them: row
    `4000·t + p` of the product needs row `4000·t + p` of the left array, which is row `p` of the point's left block, and
    all of the right array, which is the point's right block. -/
theorem flushed_eq (c : Dev nD) (t : Fin cfg1.N) :
    (dat1 V c).flushed 2 t
      = ((cfg1.win 2).blk t).view.read (Elt Ideal) (matProd 100000 16 10 (V c main_v47) (V c main_arg4)) := by
  show (cfg1.win 2).cut (grid1.coords t) ((dat1 V c).after 2 t) = _
  rw [after1_2]
  unfold out1_2
  rw [View.canon_unit_zero zero_offsets]
  simp only [View.ld_unit_zero (S := S4000x16) zero_offsets, View.ld_unit_zero (S := S16x10) zero_offsets]
  obtain ⟨e00, e01, e10, e11, e20, e21⟩ := index_maps t
  funext j
  show k1_pay1 (F := Ideal) (iblk1 V c 0 t) (iblk1 V c 1 t) j
    = matProd 100000 16 10 (V c main_v47) (V c main_arg4) (((cfg1.win 2).blk t).view.emb j)
  refine (stored_apply _ _ j).trans ?_
  unfold matProd
  refine Finset.sum_congr rfl fun κ _ => ?_
  have hl : iblk1 V c 0 t (rowAt j κ) = V c main_v47 (rowAt (((cfg1.win 2).blk t).view.emb j) κ) := by
    show V c main_v47 (((cfg1.win 0).blk t).view.emb (rowAt j κ)) = _
    refine congrArg (V c main_v47) (funext fun a => Fin.ext ?_)
    match a with
    | ⟨0, _⟩ =>
      show win1_0.index t (0 : Fin 2) * 4000 + 1 * (j 0).val = win1_2.index t (0 : Fin 2) * 4000 + 1 * (j 0).val
      omega
    | ⟨1, _⟩ =>
      show win1_0.index t (1 : Fin 2) * 16 + 1 * κ.val = κ.val
      omega
  have hr : iblk1 V c 1 t (colAt j κ) = V c main_arg4 (colAt (((cfg1.win 2).blk t).view.emb j) κ) := by
    show V c main_arg4 (((cfg1.win 1).blk t).view.emb (colAt j κ)) = _
    refine congrArg (V c main_arg4) (funext fun a => Fin.ext ?_)
    match a with
    | ⟨0, _⟩ =>
      show win1_1.index t (0 : Fin 2) * 16 + 1 * κ.val = κ.val
      omega
    | ⟨1, _⟩ =>
      show win1_1.index t (1 : Fin 2) * 10 + 1 * (j 1).val = win1_2.index t (1 : Fin 2) * 10 + 1 * (j 1).val
      omega
  rw [hl, hr]

/-- An index of the result array is in point `t`'s block iff each coordinate is in the block's range on its axis. -/
theorem mem_block (t : Fin cfg1.N) (i : S100000x10.Idx) :
    i ∈ ((cfg1.win 2).blk t).view.set ↔ ∀ a : Fin 2, win1_2.index t a * S4000x10.size a ≤ (i a).val
      ∧ (i a).val < win1_2.index t a * S4000x10.size a + S4000x10.size a := by
  show i ∈ ((View.whole main_v48).slice (win1_2.rect t)).set ↔ _
  rw [View.set_slice_whole, Rect.mem_set_unit]
  exact Iff.rfl

/-- The 25 row blocks cover the result array: row `r` is in the block of point `r / 4000`. -/
theorem covered (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  have hN : grid1.N = 25 := N_1
  have hlt : (i 0).val / 4000 < cfg1.N := by show (i 0).val / 4000 < grid1.N; omega
  obtain ⟨e00, e01, e10, e11, e20, e21⟩ := index_maps ⟨(i 0).val / 4000, hlt⟩
  have e20' : win1_2.index ⟨(i 0).val / 4000, hlt⟩ (0 : Fin 2) = (i 0).val / 4000 := e20
  refine ⟨⟨(i 0).val / 4000, hlt⟩, flush1_2 _, ?_⟩
  rw [mem_block]
  intro a
  match a with
  | ⟨0, _⟩ =>
    show win1_2.index ⟨(i 0).val / 4000, hlt⟩ (0 : Fin 2) * 4000 ≤ (i 0).val
      ∧ (i 0).val < win1_2.index ⟨(i 0).val / 4000, hlt⟩ (0 : Fin 2) * 4000 + 4000
    omega
  | ⟨1, _⟩ =>
    show win1_2.index ⟨(i 0).val / 4000, hlt⟩ (1 : Fin 2) * 10 ≤ (i 1).val
      ∧ (i 1).val < win1_2.index ⟨(i 0).val / 4000, hlt⟩ (1 : Fin 2) * 10 + 10
    omega

/-- THE RESULT ARRAY after the region: the whole product of the two arrays as the region found them. -/
theorem result_array (c : Dev nD) :
    (dat1 V c).arrAt 2 cfg1.N = matProd 100000 16 10 (V c main_v47) (V c main_arg4) :=
  (dat1 V c).arrAt_eq_of_cover 2 _ (fun t _ => flushed_eq V c t) covered

end Cert.KernelIdeal.Proj2

end
-- ==== Proof.Network.lean ====
/-
  The whole network as ONE function of its six arguments over the extended reals:

      log_softmax (Â · (relu (Â · (x · W₁) + b₁) · W₂) + b₂),

  where `Â · p` stands for "gather the rows of `p` at the edges' sources, scale by the edge weights, add up at the
  edges' targets" (the layers module), and `·` between arrays is the plain matrix product. Both programs are shown
  to end with their result at this function of their arguments.
-/
import proofs.«174441_j62792421867575_1_alg».proof.Proof.Layers
import proofs.«174441_j62792421867575_1_alg».proof.Proof.MatProd

noncomputable section

namespace Cert.Gcn

open Idealize.ShloMosaic Cert.KernelIdeal

/-- The two-layer graph convolution of `x` over the edge list `e` with weights `W₁`, `W₂` and biases `b₁`, `b₂`. -/
def network (x : (⟨S100000x512, .f32⟩ : BufTy).Contents (Elt Ideal)) (e : (⟨S2x3200000, .i32⟩ : BufTy).Contents (Elt Ideal))
    (w1 : (⟨S512x16, .f32⟩ : BufTy).Contents (Elt Ideal)) (b1 : (⟨S16, .f32⟩ : BufTy).Contents (Elt Ideal))
    (w2 : (⟨S16x10, .f32⟩ : BufTy).Contents (Elt Ideal)) (b2 : (⟨S10, .f32⟩ : BufTy).Contents (Elt Ideal)) :
    (⟨S100000x10, .f32⟩ : BufTy).Contents (Elt Ideal) :=
  output (matProd 100000 16 10 (hidden (matProd 100000 512 16 x w1) e b1) w2) e b2

end Cert.Gcn

end
-- ==== Proof.KernelValue.lean ====
/-
  The idealized kernel's result, as a function of its arguments: the network's. The fold of @main over the launch
  memory is followed from the launch to the result buffer — the lists and weights from the edge list before the first
  region; the first region's array `x · W₁`; the hidden layer between the regions; the second region's array
  `h · W₂`; the result after it — each step one of the stretch lemmas or one of the two region values, every buffer a
  later step reads carried through the steps that do not write it.
-/
import proofs.«174441_j62792421867575_1_alg».proof.Proof.KernelRun
import proofs.«174441_j62792421867575_1_alg».proof.Proof.KernelFold
import proofs.«174441_j62792421867575_1_alg».proof.Proof.Proj1
import proofs.«174441_j62792421867575_1_alg».proof.Proof.Proj2
import proofs.«174441_j62792421867575_1_alg».proof.Proof.Network

set_option maxRecDepth 16384

noncomputable section

namespace Cert.KernelIdeal.Whole

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-- The last boundary's contents at the result buffer are the network's value at the launch contents of the arguments. -/
theorem result_value (c : Dev nD) :
    W9 m ρ c (Proc.devRef .tc main_v65)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- before the first region: the lists and weights from the edge list, the arguments as launched
  have src3 : W3 m ρ c (Proc.devRef .tc main_v3) = srcIds (m ((c.tc : Thread nD τ).loc main_arg1)) := Fold.head_src (W0 m ρ c)
  have dst3 : W3 m ρ c (Proc.devRef .tc main_v6) = dstIds (m ((c.tc : Thread nD τ).loc main_arg1)) := Fold.head_dst (W0 m ρ c)
  have wt3 : W3 m ρ c (Proc.devRef .tc main_v29) = edgeWeight (srcIds (m ((c.tc : Thread nD τ).loc main_arg1))) (dstIds (m ((c.tc : Thread nD τ).loc main_arg1))) :=
    Fold.head_weight (W0 m ρ c)
  have x3 : W3 m ρ c (Proc.devRef .tc main_arg0) = (m ((c.tc : Thread nD τ).loc main_arg0)) := Fold.head_main_arg0 (W0 m ρ c)
  have w13 : W3 m ρ c (Proc.devRef .tc main_arg2) = (m ((c.tc : Thread nD τ).loc main_arg2)) := Fold.head_main_arg2 (W0 m ρ c)
  have b13 : W3 m ρ c (Proc.devRef .tc main_arg3) = (m ((c.tc : Thread nD τ).loc main_arg3)) := Fold.head_main_arg3 (W0 m ρ c)
  have w23 : W3 m ρ c (Proc.devRef .tc main_arg4) = (m ((c.tc : Thread nD τ).loc main_arg4)) := Fold.head_main_arg4 (W0 m ρ c)
  have b23 : W3 m ρ c (Proc.devRef .tc main_arg5) = (m ((c.tc : Thread nD τ).loc main_arg5)) := Fold.head_main_arg5 (W0 m ρ c)
  -- the first region: its result array is x · W₁; it writes nothing else
  have p1 : W4 m ρ c (Proc.devRef .tc main_v30) = matProd 100000 512 16 (m ((c.tc : Thread nD τ).loc main_arg0)) (m ((c.tc : Thread nD τ).loc main_arg2)) := by
    refine ((W4_arr m ρ c 2).trans (Proj1.result_array (V3 m ρ) c)).trans ?_
    show matProd 100000 512 16 (W3 m ρ c (Proc.devRef .tc main_arg0)) (W3 m ρ c (Proc.devRef .tc main_arg2)) = _
    rw [x3, w13]
  have k4_main_v3 : W4 m ρ c (Proc.devRef .tc main_v3) = W3 m ρ c (Proc.devRef .tc main_v3) := W4_of_ne m ρ c main_v3 (by decide)
  have k4_main_v6 : W4 m ρ c (Proc.devRef .tc main_v6) = W3 m ρ c (Proc.devRef .tc main_v6) := W4_of_ne m ρ c main_v6 (by decide)
  have k4_main_v29 : W4 m ρ c (Proc.devRef .tc main_v29) = W3 m ρ c (Proc.devRef .tc main_v29) := W4_of_ne m ρ c main_v29 (by decide)
  have k4_main_arg3 : W4 m ρ c (Proc.devRef .tc main_arg3) = W3 m ρ c (Proc.devRef .tc main_arg3) := W4_of_ne m ρ c main_arg3 (by decide)
  have k4_main_arg4 : W4 m ρ c (Proc.devRef .tc main_arg4) = W3 m ρ c (Proc.devRef .tc main_arg4) := W4_of_ne m ρ c main_arg4 (by decide)
  have k4_main_arg5 : W4 m ρ c (Proc.devRef .tc main_arg5) = W3 m ρ c (Proc.devRef .tc main_arg5) := W4_of_ne m ρ c main_arg5 (by decide)
  -- between the regions: the hidden layer; the lists, weights, W₂ and b₂ carried
  have h6 : W6 m ρ c (Proc.devRef .tc main_v47)
      = hidden (matProd 100000 512 16 (m ((c.tc : Thread nD τ).loc main_arg0)) (m ((c.tc : Thread nD τ).loc main_arg2))) (m ((c.tc : Thread nD τ).loc main_arg1)) (m ((c.tc : Thread nD τ).loc main_arg3)) := by
    refine (Fold.mid_hidden (W4 m ρ c)).trans ?_
    rw [p1, k4_main_v3, k4_main_v6, k4_main_v29, k4_main_arg3, src3, dst3, wt3, b13]
    rfl
  have src6 : W6 m ρ c (Proc.devRef .tc main_v3) = srcIds (m ((c.tc : Thread nD τ).loc main_arg1)) := ((Fold.mid_main_v3 (W4 m ρ c)).trans k4_main_v3).trans src3
  have dst6 : W6 m ρ c (Proc.devRef .tc main_v6) = dstIds (m ((c.tc : Thread nD τ).loc main_arg1)) := ((Fold.mid_main_v6 (W4 m ρ c)).trans k4_main_v6).trans dst3
  have wt6 : W6 m ρ c (Proc.devRef .tc main_v29) = edgeWeight (srcIds (m ((c.tc : Thread nD τ).loc main_arg1))) (dstIds (m ((c.tc : Thread nD τ).loc main_arg1))) :=
    ((Fold.mid_main_v29 (W4 m ρ c)).trans k4_main_v29).trans wt3
  have w26 : W6 m ρ c (Proc.devRef .tc main_arg4) = (m ((c.tc : Thread nD τ).loc main_arg4)) := ((Fold.mid_main_arg4 (W4 m ρ c)).trans k4_main_arg4).trans w23
  have b26 : W6 m ρ c (Proc.devRef .tc main_arg5) = (m ((c.tc : Thread nD τ).loc main_arg5)) := ((Fold.mid_main_arg5 (W4 m ρ c)).trans k4_main_arg5).trans b23
  -- the second region: its result array is h · W₂; it writes nothing else
  have p2 : W7 m ρ c (Proc.devRef .tc main_v48)
      = matProd 100000 16 10 (hidden (matProd 100000 512 16 (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4)) := by
    refine ((W7_arr m ρ c 2).trans (Proj2.result_array (V6 m ρ) c)).trans ?_
    show matProd 100000 16 10 (W6 m ρ c (Proc.devRef .tc main_v47)) (W6 m ρ c (Proc.devRef .tc main_arg4)) = _
    rw [h6, w26]
  have src7 : W7 m ρ c (Proc.devRef .tc main_v3) = srcIds (m ((c.tc : Thread nD τ).loc main_arg1)) := (W7_of_ne m ρ c main_v3 (by decide)).trans src6
  have dst7 : W7 m ρ c (Proc.devRef .tc main_v6) = dstIds (m ((c.tc : Thread nD τ).loc main_arg1)) := (W7_of_ne m ρ c main_v6 (by decide)).trans dst6
  have wt7 : W7 m ρ c (Proc.devRef .tc main_v29) = edgeWeight (srcIds (m ((c.tc : Thread nD τ).loc main_arg1))) (dstIds (m ((c.tc : Thread nD τ).loc main_arg1))) :=
    (W7_of_ne m ρ c main_v29 (by decide)).trans wt6
  have b27 : W7 m ρ c (Proc.devRef .tc main_arg5) = (m ((c.tc : Thread nD τ).loc main_arg5)) := (W7_of_ne m ρ c main_arg5 (by decide)).trans b26
  -- after the second region: the result
  refine (Fold.tail_output (W7 m ρ c)).trans ?_
  rw [p2, src7, dst7, wt7, b27]
  rfl

/-- The idealized kernel's run: the result buffer ends at the network's value of the arguments, which end as launched. -/
theorem run : θ_run defs (onTc (τ := τ) (main (F := Ideal))) ⟨m, fun _ => 0, ρ⟩ (fun r => ∀ c : Dev nD,
      r.2.mem ((c.tc : Thread nD τ).loc main_v65)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_result m ρ)

end Cert.KernelIdeal.Whole

end
-- ==== Proof.DotReference.lean ====
/-
  The reference's two whole-array products on the host — `x · W₁` (100000 × 512 by 512 × 16) and `h · W₂`
  (100000 × 16 by 16 × 10) — are the plain matrix product of their operands, entry by entry: the operand indices the
  `dot_general`'s dimension numbers give are (row of the entry, κ) and (κ, column of the entry), and the one contracted
  axis is re-indexed by its coordinate.
-/
import proofs.«174441_j62792421867575_1_alg».proof.Proof.Gen.ReferenceIdeal
import proofs.«174441_j62792421867575_1_alg».proof.Proof.MatProd

noncomputable section

open scoped BigOperators

namespace Cert.ReferenceIdeal.Dots

open Idealize.ShloMosaic Cert.Gcn Cert.ReferenceIdeal

/-! ## `dot_S100000x512_S512x16_S100000x16_1_0_0_1_n_n`: rows of the left operand against columns of the right, one contracted axis of extent 512 -/

theorem lhs0_xw1 (i : S100000x16.Idx) (q : dot_S100000x512_S512x16_S100000x16_1_0_0_1_n_n.contr.Idx) : (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem lhs1_xw1 (i : S100000x16.Idx) (q : dot_S100000x512_S512x16_S100000x16_1_0_0_1_n_n.contr.Idx) : (dot_S100000x512_S512x16_S100000x16_1_0_0_1_n_n.lhsIdx i q 1).val = (q ⟨0, by decide⟩).val :=
  dot_S100000x512_S512x16_S100000x16_1_0_0_1_n_n.lhsIdx_val_of_single rfl i q
theorem rhs0_xw1 (i : S100000x16.Idx) (q : dot_S100000x512_S512x16_S100000x16_1_0_0_1_n_n.contr.Idx) : (dot_S100000x512_S512x16_S100000x16_1_0_0_1_n_n.rhsIdx i q 0).val = (q ⟨0, by decide⟩).val :=
  dot_S100000x512_S512x16_S100000x16_1_0_0_1_n_n.rhsIdx_val_of_single rfl i q
theorem rhs1_xw1 (i : S100000x16.Idx) (q : dot_S100000x512_S512x16_S100000x16_1_0_0_1_n_n.contr.Idx) : (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- Read at an entry, the product is the plain matrix product's sum there. -/
theorem dotGeneral_xw1 {φ₁ φ₂ : FTy} (l : FVec Ideal S100000x512 φ₁) (r : FVec Ideal S512x16 φ₂) (i : S100000x16.Idx) :
    Host.dotGeneral (F := Ideal) dot_S100000x512_S512x16_S100000x16_1_0_0_1_n_n none l r i = matProd 100000 512 16 l r i := by
  simp only [Host.dotGeneral]
  rw [Ideal.dotGeneral_apply, ← Equiv.sum_comp (ValueIdx.contrEquiv1 dot_S100000x512_S512x16_S100000x16_1_0_0_1_n_n 512 rfl rfl).symm]
  unfold matProd
  refine Finset.sum_congr rfl fun k _ => ?_
  have hk := ValueIdx.contrEquiv1_symm_val dot_S100000x512_S512x16_S100000x16_1_0_0_1_n_n 512 rfl rfl k
  have el : dot_S100000x512_S512x16_S100000x16_1_0_0_1_n_n.lhsIdx i ((ValueIdx.contrEquiv1 dot_S100000x512_S512x16_S100000x16_1_0_0_1_n_n 512 rfl rfl).symm k) = rowAt i k := funext fun a => Fin.ext (by
    match a with
    | ⟨0, _⟩ => exact lhs0_xw1 _ _
    | ⟨1, _⟩ => exact (lhs1_xw1 _ _).trans hk)
  have er : dot_S100000x512_S512x16_S100000x16_1_0_0_1_n_n.rhsIdx i ((ValueIdx.contrEquiv1 dot_S100000x512_S512x16_S100000x16_1_0_0_1_n_n 512 rfl rfl).symm k) = colAt i k := funext fun a => Fin.ext (by
    match a with
    | ⟨0, _⟩ => exact (rhs0_xw1 _ _).trans hk
    | ⟨1, _⟩ => exact rhs1_xw1 _ _)
  rw [el, er]

/-! ## `dot_S100000x16_S16x10_S100000x10_1_0_0_1_n_n`: rows of the left operand against columns of the right, one contracted axis of extent 16 -/

theorem lhs0_hw2 (i : S100000x10.Idx) (q : dot_S100000x16_S16x10_S100000x10_1_0_0_1_n_n.contr.Idx) : (dot_S100000x16_S16x10_S100000x10_1_0_0_1_n_n.lhsIdx i q 0).val = (i 0).val := by
  unfold DotDims.lhsIdx
  rw [dif_neg (show ¬(0 : Fin S100000x16.rank) ∈ dot_S100000x16_S16x10_S100000x10_1_0_0_1_n_n.lhsBatch by decide), dif_pos (show (0 : Fin S100000x16.rank) ∈ dot_S100000x16_S16x10_S100000x10_1_0_0_1_n_n.lhsNonContracting by decide)]
  rfl
theorem lhs1_hw2 (i : S100000x10.Idx) (q : dot_S100000x16_S16x10_S100000x10_1_0_0_1_n_n.contr.Idx) : (dot_S100000x16_S16x10_S100000x10_1_0_0_1_n_n.lhsIdx i q 1).val = (q ⟨0, by decide⟩).val :=
  dot_S100000x16_S16x10_S100000x10_1_0_0_1_n_n.lhsIdx_val_of_single rfl i q
theorem rhs0_hw2 (i : S100000x10.Idx) (q : dot_S100000x16_S16x10_S100000x10_1_0_0_1_n_n.contr.Idx) : (dot_S100000x16_S16x10_S100000x10_1_0_0_1_n_n.rhsIdx i q 0).val = (q ⟨0, by decide⟩).val :=
  dot_S100000x16_S16x10_S100000x10_1_0_0_1_n_n.rhsIdx_val_of_single rfl i q
theorem rhs1_hw2 (i : S100000x10.Idx) (q : dot_S100000x16_S16x10_S100000x10_1_0_0_1_n_n.contr.Idx) : (dot_S100000x16_S16x10_S100000x10_1_0_0_1_n_n.rhsIdx i q 1).val = (i 1).val := by
  unfold DotDims.rhsIdx
  rw [dif_neg (show ¬(1 : Fin S16x10.rank) ∈ dot_S100000x16_S16x10_S100000x10_1_0_0_1_n_n.rhsBatch by decide), dif_pos (show (1 : Fin S16x10.rank) ∈ dot_S100000x16_S16x10_S100000x10_1_0_0_1_n_n.rhsNonContracting by decide)]
  rfl

/-- Read at an entry, the product is the plain matrix product's sum there. -/
theorem dotGeneral_hw2 {φ₁ φ₂ : FTy} (l : FVec Ideal S100000x16 φ₁) (r : FVec Ideal S16x10 φ₂) (i : S100000x10.Idx) :
    Host.dotGeneral (F := Ideal) dot_S100000x16_S16x10_S100000x10_1_0_0_1_n_n none l r i = matProd 100000 16 10 l r i := by
  simp only [Host.dotGeneral]
  rw [Ideal.dotGeneral_apply, ← Equiv.sum_comp (ValueIdx.contrEquiv1 dot_S100000x16_S16x10_S100000x10_1_0_0_1_n_n 16 rfl rfl).symm]
  unfold matProd
  refine Finset.sum_congr rfl fun k _ => ?_
  have hk := ValueIdx.contrEquiv1_symm_val dot_S100000x16_S16x10_S100000x10_1_0_0_1_n_n 16 rfl rfl k
  have el : dot_S100000x16_S16x10_S100000x10_1_0_0_1_n_n.lhsIdx i ((ValueIdx.contrEquiv1 dot_S100000x16_S16x10_S100000x10_1_0_0_1_n_n 16 rfl rfl).symm k) = rowAt i k := funext fun a => Fin.ext (by
    match a with
    | ⟨0, _⟩ => exact lhs0_hw2 _ _
    | ⟨1, _⟩ => exact (lhs1_hw2 _ _).trans hk)
  have er : dot_S100000x16_S16x10_S100000x10_1_0_0_1_n_n.rhsIdx i ((ValueIdx.contrEquiv1 dot_S100000x16_S16x10_S100000x10_1_0_0_1_n_n 16 rfl rfl).symm k) = colAt i k := funext fun a => Fin.ext (by
    match a with
    | ⟨0, _⟩ => exact (rhs0_hw2 _ _).trans hk
    | ⟨1, _⟩ => exact rhs1_hw2 _ _)
  rw [el, er]

end Cert.ReferenceIdeal.Dots

end
-- ==== Proof.ReferenceValue.lean ====
/-
  The idealized reference's result, as a function of its arguments: the network's. Its run ends with the result
  buffer at the composed term of its 98 host operations; that term is the network's function once its two whole-array
  products are read as plain matrix products — every other operation of the term is, in order, one of the stages the
  layers module names (the same operations the kernel's program applies around its own projections).
-/
import proofs.«174441_j62792421867575_1_alg».proof.Proof.ReferenceRun
import proofs.«174441_j62792421867575_1_alg».proof.Proof.DotReference
import proofs.«174441_j62792421867575_1_alg».proof.Proof.Network

set_option maxRecDepth 16384

noncomputable section

namespace Cert.ReferenceIdeal.Net

open Cert.ReferenceIdeal Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-- The host's first product is the plain matrix product `x · W₁`. -/
theorem product1 (l : FVec Ideal S100000x512 .f32) (r : FVec Ideal S512x16 .f32) :
    Host.dotGeneral (F := Ideal) dot_S100000x512_S512x16_S100000x16_1_0_0_1_n_n none l r = matProd 100000 512 16 l r :=
  funext fun i => Dots.dotGeneral_xw1 l r i

/-- The host's second product is the plain matrix product `h · W₂`. -/
theorem product2 (l : FVec Ideal S100000x16 .f32) (r : FVec Ideal S16x10 .f32) :
    Host.dotGeneral (F := Ideal) dot_S100000x16_S16x10_S100000x10_1_0_0_1_n_n none l r = matProd 100000 16 10 l r :=
  funext fun i => Dots.dotGeneral_hw2 l r i

set_option maxRecDepth 65536 in
set_option maxHeartbeats 4000000 in
/-- The run's result term is the network's value at the launch contents of the arguments. -/
theorem result_value (c : Dev nD) :
    ValueP.res_main_v65 (F := Ideal) m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold ValueP.res_main_v65
  rw [product1, product2]
  rfl

/-- The idealized reference's run: the result buffer ends at the network's value of the arguments, which end as launched. -/
theorem run : θ_run defs (onTc (τ := τ) (main (F := Ideal))) ⟨m, fun _ => 0, ρ⟩ (fun r => ∀ c : Dev nD,
      r.2.mem ((c.tc : Thread nD τ).loc main_v65)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m c), (h c).2⟩) (ValueP.run (F := Ideal) m ρ)

end Cert.ReferenceIdeal.Net

end
-- ==== Proof.lean ====
/-
  Kernel and reference compute one function.

  The program is a two-layer graph convolution with a log-softmax: with `Â` the normalised adjacency of the edge list
  (self-loops added, weights deg^(-1/2)·deg^(-1/2)),

      out = log_softmax (Â (relu (Â (x W₁) + b₁) W₂) + b₂).

  The reference computes the two products `x W₁` and `h W₂` whole, on the host. The kernel computes each in a grid of
  25 points: a point loads a block of 4000 rows of the left operand and the whole right operand, rounds both to bf16,
  multiplies them on the matrix unit into a zero accumulator and writes the 4000 result rows back. Over the extended
  reals the rounding is the identity and `0 + s = s`, so a point's block is the corresponding 4000 rows of the whole
  product, and the 25 blocks tile the 100000 rows: each region leaves the whole product (Proj1, Proj2). Everything
  else — the edge lists, the degrees and weights, the gathers and scatter-adds, the biases, the ReLU, the log-softmax —
  is the same sequence of host operations in both programs, named once (Layers) and never opened. So both runs end
  with the result at `network` of the arguments (KernelValue, ReferenceValue), and from memories that agree on the
  arguments the results are equal. No law used needs an input to be finite: the precondition is not opened.

  The three frames are the generated frame certificates (the reference's is its run with the result dropped);
  `preserves` is `True`: the idealization rewrote nothing.
-/
import proofs.«174441_j62792421867575_1_alg».proof.Defs
import proofs.«174441_j62792421867575_1_alg».proof.Proof.Gen.Kernel
import proofs.«174441_j62792421867575_1_alg».proof.Proof.Gen.Kernel.Frame
import proofs.«174441_j62792421867575_1_alg».proof.Proof.Gen.KernelIdeal
import proofs.«174441_j62792421867575_1_alg».proof.Proof.Gen.KernelIdeal.Frame
import proofs.«174441_j62792421867575_1_alg».proof.Proof.Gen.ReferenceIdeal
import proofs.«174441_j62792421867575_1_alg».proof.Proof.Gen.Pre_finite_inputs
import proofs.«174441_j62792421867575_1_alg».proof.Proof.KernelValue
import proofs.«174441_j62792421867575_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Net.run m ρ)

/-- From memories that agree on the six arguments, both programs end with the result at the network's value of them. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩) (Cert.ReferenceIdeal.Net.run m' ρ')
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
